-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x256 : Shape := ⟨2, ![16, 256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel

variable [Facts]

def fn {F : FTy → Type} [FloatOps F] (main_arg0 : FVec F S16x8192x256 .f32) (main_arg1 : IVec S16x256 32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  main_v3
-- ==== Kernel.lean ====
abbrev S16x8192x256 : Shape := ⟨3, ![16, 8192, 256]⟩
abbrev S16x256 : Shape := ⟨2, ![16, 256]⟩
abbrev S_ : Shape := ⟨0, ![]⟩
abbrev S16x256x1 : Shape := ⟨3, ![16, 256, 1]⟩
abbrev S16x256x256 : Shape := ⟨3, ![16, 256, 256]⟩
abbrev S1x256x1 : Shape := ⟨3, ![1, 256, 1]⟩
abbrev S1x2048x256 : Shape := ⟨3, ![1, 2048, 256]⟩
abbrev S1x256x256 : Shape := ⟨3, ![1, 256, 256]⟩
abbrev S256x256 : Shape := ⟨2, ![256, 256]⟩
abbrev S1x2048 : Shape := ⟨2, ![1, 2048]⟩
abbrev S256x1 : Shape := ⟨2, ![256, 1]⟩
abbrev S256x2048 : Shape := ⟨2, ![256, 2048]⟩
abbrev S2048x256 : Shape := ⟨2, ![2048, 256]⟩

abbrev nBuf : Space → Nat
  | .hbm => 9
  | .vmem => 9
  | .smem => 0
  | _ => 0

abbrev bufTy : (tb : Table) → Fin (tcTables nBuf tb) → BufTy
  | .hbm, ⟨0, _⟩ => ⟨S16x8192x256, .f32⟩
  | .hbm, ⟨1, _⟩ => ⟨S16x256, .i32⟩
  | .hbm, ⟨2, _⟩ => ⟨S_, .i32⟩
  | .hbm, ⟨3, _⟩ => ⟨S_, .i32⟩
  | .hbm, ⟨4, _⟩ => ⟨S16x256, .i32⟩
  | .hbm, ⟨5, _⟩ => ⟨S16x256, .i32⟩
  | .hbm, ⟨6, _⟩ => ⟨S16x256x1, .i32⟩
  | .hbm, ⟨7, _⟩ => ⟨S16x256x1, .i32⟩
  | .hbm, ⟨8, _⟩ => ⟨S16x256x256, .f32⟩
  | .local _ .vmem, ⟨0, _⟩ => ⟨S1x256x1, .i32⟩
  | .local _ .vmem, ⟨1, _⟩ => ⟨S1x256x1, .i32⟩
  | .local _ .vmem, ⟨2, _⟩ => ⟨S1x256x1, .i32⟩
  | .local _ .vmem, ⟨3, _⟩ => ⟨S1x256x1, .i32⟩
  | .local _ .vmem, ⟨4, _⟩ => ⟨S1x2048x256, .f32⟩
  | .local _ .vmem, ⟨5, _⟩ => ⟨S1x2048x256, .f32⟩
  | .local _ .vmem, ⟨6, _⟩ => ⟨S1x256x256, .f32⟩
  | .local _ .vmem, ⟨7, _⟩ => ⟨S1x256x256, .f32⟩
  | .local _ .vmem, ⟨8, _⟩ => ⟨S256x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_15 : BitVec 32 := 0#32
  let v33 : BitVec 1 := Scalar.cmpi .ne v32 c0_i32_15
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S_ : S_.BroadcastsInDim S_ (![] : Fin 0 → Fin S_.rank)
  reduceWindows_S16x256_S16x256_w1s1p0_0_w256s1p255_0 : S16x256.ReduceWindows (![1, 256] : Fin 2 → Nat) ![1, 1] ![0, 255] ![0, 0] S16x256
  h_S_ : 0 < S_.numel
  bcast_S16x256_S16x256x1_0_1 : S16x256.BroadcastsInDim S16x256x1 (![0, 1] : Fin 2 → Fin S16x256x1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  iota_S1x2048_d1_w32 : S1x2048.Iotas .tc 32 [1]
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S1x2048_S256x2048 : S1x2048.Broadcasts S256x2048
  broadcasts_S256x1_S256x2048 : S256x1.Broadcasts S256x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  broadcasts_S256x1_S256x256 : S256x1.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1.size a ≤ S16x256x1.size a
  hwx0_0 : ∀ i : grid0.Coords, EltTy.bits .i32 = 32 ∨ (Rect.block (s := S16x256x1) S1x256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S16x256x1.size a
  hwx0_1 : ∀ i : grid0.Coords, EltTy.bits .i32 = 32 ∨ (Rect.block (s := S16x256x1) S1x256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x8192x256.size a
  hwx0_2 : ∀ i : grid0.Coords, EltTy.bits .f32 = 32 ∨ (Rect.block (s := S16x8192x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S16x256x256.size a
  hwx0_3 : ∀ i : grid0.Coords, EltTy.bits .f32 = 32 ∨ (Rect.block (s := S16x256x256) S1x256x256.size (cc0_transform_3 i) (hinb0_3 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_v2) S1x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x8192x256 : Shape := ⟨3, ![16, 8192, 256]⟩
abbrev S16x256 : Shape := ⟨2, ![16, 256]⟩
abbrev S_ : Shape := ⟨0, ![]⟩
abbrev S8192 : Shape := ⟨1, ![8192]⟩
abbrev S1x1x8192 : Shape := ⟨3, ![1, 1, 8192]⟩
abbrev S16x256x1 : Shape := ⟨3, ![16, 256, 1]⟩
abbrev S16x256x8192 : Shape := ⟨3, ![16, 256, 8192]⟩
abbrev S16x256x256 : Shape := ⟨3, ![16, 256, 256]⟩

abbrev nBuf : Space → Nat
  | .hbm => 27
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x256, .i32⟩
  | .hbm, ⟨2, _⟩ => ⟨S_, .i32⟩
  | .hbm, ⟨3, _⟩ => ⟨S_, .i32⟩
  | .hbm, ⟨4, _⟩ => ⟨S16x256, .i32⟩
  | .hbm, ⟨5, _⟩ => ⟨S16x256, .i32⟩
  | .hbm, ⟨6, _⟩ => ⟨S8192, .i32⟩
  | .hbm, ⟨7, _⟩ => ⟨S1x1x8192, .i32⟩
  | .hbm, ⟨8, _⟩ => ⟨S16x256x1, .i32⟩
  | .hbm, ⟨9, _⟩ => ⟨S16x256x8192, .i32⟩
  | .hbm, ⟨10, _⟩ => ⟨S16x256x8192, .i32⟩
  | .hbm, ⟨11, _⟩ => ⟨S16x256x8192, .i1⟩
  | .hbm, ⟨12, _⟩ => ⟨S1x1x8192, .i32⟩
  | .hbm, ⟨13, _⟩ => ⟨S16x256x1, .i32⟩
  | .hbm, ⟨14, _⟩ => ⟨S16x256x8192, .i32⟩
  | .hbm, ⟨15, _⟩ => ⟨S16x256x8192, .i32⟩
  | .hbm, ⟨16, _⟩ => ⟨S16x256x8192, .i1⟩
  | .hbm, ⟨17, _⟩ => ⟨S16x256x8192, .i1⟩
  | .hbm, ⟨18, _⟩ => ⟨S16x256x8192, .f32⟩
  | .hbm, ⟨19, _⟩ => ⟨S16x256x256, .f32⟩
  | .hbm, ⟨20, _⟩ => ⟨S_, .i32⟩
  | .hbm, ⟨21, _⟩ => ⟨S16x256, .i32⟩
  | .hbm, ⟨22, _⟩ => ⟨S16x256, .i32⟩
  | .hbm, ⟨23, _⟩ => ⟨S16x256, .f32⟩
  | .hbm, ⟨24, _⟩ => ⟨S16x256x1, .f32⟩
  | .hbm, ⟨25, _⟩ => ⟨S16x256x256, .f32⟩
  | .hbm, ⟨26, _⟩ => ⟨S16x256x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x256_S16x256_w1s1p0_0_w256s1p255_0 : S16x256.ReduceWindows (![1, 256] : Fin 2 → Nat) ![1, 1] ![0, 255] ![0, 0] S16x256
  h_S_ : 0 < S_.numel
  bcast_S8192_S1x1x8192_2 : S8192.BroadcastsInDim S1x1x8192 (![2] : Fin 1 → Fin S1x1x8192.rank)
  bcast_S16x256_S16x256x1_0_1 : S16x256.BroadcastsInDim S16x256x1 (![0, 1] : Fin 2 → Fin S16x256x1.rank)
  bcast_S1x1x8192_S16x256x8192_0_1_2 : S1x1x8192.BroadcastsInDim S16x256x8192 (![0, 1, 2] : Fin 3 → Fin S16x256x8192.rank)
  bcast_S16x256x1_S16x256x8192_0_1_2 : S16x256x1.BroadcastsInDim S16x256x8192 (![0, 1, 2] : Fin 3 → Fin S16x256x8192.rank)
  bcast_S_S16x256 : S_.BroadcastsInDim S16x256 (![] : Fin 0 → Fin S16x256.rank)
  bcast_S16x256x1_S16x256x256_0_1_2 : S16x256x1.BroadcastsInDim S16x256x256 (![0, 1, 2] : Fin 3 → Fin S16x256x256.rank)
  dot_S16x256x8192_S16x8192x256_S16x256x256_2_1_1_2_0_0_wf : DotDims.WF S16x256x8192 S16x8192x256 S16x256x256 [2] [1] [1] [2] [0] [0]

variable [Facts₀]

def dot_S16x256x8192_S16x8192x256_S16x256x256_2_1_1_2_0_0 : DotDims S16x256x8192 S16x8192x256 S16x256x256 where
  lhsContracting := [2]
  rhsContracting := [1]
  lhsNonContracting := [1]
  rhsNonContracting := [2]
  lhsBatch := [0]
  rhsBatch := [0]
  wf := dot_S16x256x8192_S16x8192x256_S16x256x256_2_1_1_2_0_0_wf

class Facts : Prop extends Facts₀ where

variable [Facts]
-- ==== Proof.KernelPieces.lean ====
/-
  What each control case of the body leaves behind, as the body's own stored values.

  At a tile that is not a batch element's first, the accumulator scratch ends at the accumulator store's value over
  what the tile before left; at the first tile, over the zero block the reset stored just before; and at the last
  tile the output block ends at the output store's value over the accumulator just stored.  Each buffer is covered
  by one whole store, so reading the stores back is reading the last stored value, and every load reads a whole
  buffer.
-/
import proofs.«101690_j46952582480042_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A tile that is neither first nor last: the scratch holds the accumulator store's value over the previous contents. -/
theorem scratch_mid (c : Dev nD) (i : grid0.Coords) (a2 : Memref sig .tc .vmem S1x256x1 .i32) (h2 : a2.IsWhole) (a3 : Memref sig .tc .vmem S1x256x1 .i32) (h3 : a3.IsWhole) (a4 : Memref sig .tc .vmem S1x2048x256 .f32) (h4 : a4.IsWhole) (a5 : Memref sig .tc .vmem S1x256x256 .f32) (h5 : a5.IsWhole) (a6 : Memref sig .tc .vmem S256x256 .f32) (h6 : a6.IsWhole) (hc0 : ¬cond0_0 i) (hc1 : ¬cond0_1 i)
    (x0 : Vec F S1x256x1 .i32) (x1 : Vec F S1x256x1 .i32) (x2 : Vec F S1x2048x256 .f32) (xs0 : Vec F S256x256 .f32) :
    sout0_B_0 c i a2 h2 a3 h3 a4 h4 a5 h5 a6 h6 hc0 hc1 x0 x1 x2 xs0 = k0_pay4 i x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz2]
  simp only [View.readAt_eq_ld, h2.read_unread, h3.read_unread, h4.read_unread, h6.read_unread, View.ld_unit_zero (S := S1x256x1) hz3, View.ld_unit_zero (S := S1x2048x256) hz3, View.ld_unit_zero (S := S256x256) hz2]

/-- The first tile: the scratch holds the accumulator store's value over the zero block just stored. -/
theorem scratch_first (c : Dev nD) (i : grid0.Coords) (a2 : Memref sig .tc .vmem S1x256x1 .i32) (h2 : a2.IsWhole) (a3 : Memref sig .tc .vmem S1x256x1 .i32) (h3 : a3.IsWhole) (a4 : Memref sig .tc .vmem S1x2048x256 .f32) (h4 : a4.IsWhole) (a5 : Memref sig .tc .vmem S1x256x256 .f32) (h5 : a5.IsWhole) (a6 : Memref sig .tc .vmem S256x256 .f32) (h6 : a6.IsWhole) (hc0 : cond0_0 i) (hc1 : ¬cond0_1 i)
    (x0 : Vec F S1x256x1 .i32) (x1 : Vec F S1x256x1 .i32) (x2 : Vec F S1x2048x256 .f32) :
    sout0_A_0 c i a2 h2 a3 h3 a4 h4 a5 h5 a6 h6 hc0 hc1 x0 x1 x2 = k0_pay4 i x0 x1 x2 (k0_pay1) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S256x256) hz2, View.readCov_unit_zero (S := S256x256) _ hz2]
  simp only [View.readAt_eq_ld, h2.read_unread, h3.read_unread, h4.read_unread, h6.read_unread, View.ld_unit_zero (S := S1x256x1) hz3, View.ld_unit_zero (S := S1x2048x256) hz3, View.ld_unit_zero (S := S256x256) hz2]

/-- The last tile: the scratch again holds the accumulator store's value over the previous contents, -/
theorem scratch_last (c : Dev nD) (i : grid0.Coords) (a2 : Memref sig .tc .vmem S1x256x1 .i32) (h2 : a2.IsWhole) (a3 : Memref sig .tc .vmem S1x256x1 .i32) (h3 : a3.IsWhole) (a4 : Memref sig .tc .vmem S1x2048x256 .f32) (h4 : a4.IsWhole) (a5 : Memref sig .tc .vmem S1x256x256 .f32) (h5 : a5.IsWhole) (a6 : Memref sig .tc .vmem S256x256 .f32) (h6 : a6.IsWhole) (hc0 : ¬cond0_0 i) (hc1 : cond0_1 i)
    (x0 : Vec F S1x256x1 .i32) (x1 : Vec F S1x256x1 .i32) (x2 : Vec F S1x2048x256 .f32) (xs0 : Vec F S256x256 .f32) :
    sout0_C_0 c i a2 h2 a3 h3 a4 h4 a5 h5 a6 h6 hc0 hc1 x0 x1 x2 xs0 = k0_pay4 i x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread, View.ld_unit_zero (S := S1x256x1) hz3, View.ld_unit_zero (S := S1x2048x256) hz3, View.ld_unit_zero (S := S256x256) hz2]

/-- and the output block holds the output store's value over that accumulator. -/
theorem out_last (c : Dev nD) (i : grid0.Coords) (a2 : Memref sig .tc .vmem S1x256x1 .i32) (h2 : a2.IsWhole) (a3 : Memref sig .tc .vmem S1x256x1 .i32) (h3 : a3.IsWhole) (a4 : Memref sig .tc .vmem S1x2048x256 .f32) (h4 : a4.IsWhole) (a5 : Memref sig .tc .vmem S1x256x256 .f32) (h5 : a5.IsWhole) (a6 : Memref sig .tc .vmem S256x256 .f32) (h6 : a6.IsWhole) (hc0 : ¬cond0_0 i) (hc1 : cond0_1 i)
    (x0 : Vec F S1x256x1 .i32) (x1 : Vec F S1x256x1 .i32) (x2 : Vec F S1x2048x256 .f32) (xs0 : Vec F S256x256 .f32) :
    out0_C_3 c i a2 h2 a3 h3 a4 h4 a5 h5 a6 h6 hc0 hc1 x0 x1 x2 xs0 = k0_pay5 x0 x1 (k0_pay4 i x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S256x256) _ hz2]
  simp only [View.readAt_eq_ld, h2.read_unread, h3.read_unread, h4.read_unread, h6.read_unread, View.ld_unit_zero (S := S1x256x1) hz3, View.ld_unit_zero (S := S1x2048x256) hz3, View.ld_unit_zero (S := S256x256) hz2]

end Cert.KernelIdeal.Pieces

end
-- ==== Proof.Spec.lean ====
/-
  The mathematics both programs compute, with no program in sight.

  For a batch element `b`, a patch `p` and a feature `d` the result is the sum over the sequence positions `s` of
  `w(s) · X[b, s, d]`, divided by the patch length clamped below at one, where the weight `w(s)` is one when
  `begin ≤ s < end` (signed comparisons of 32-bit words) and zero otherwise, `end` the running sum of the lengths
  and `begin = end − length`.  One program sums the 8192 positions at once; the other adds four tiles of 2048
  positions to a zeroed accumulator.  Addition on the extended reals is commutative and associative, so the two
  groupings agree with no finiteness assumption: the sum over a range splits at any point.
-/
import Idealize.ShloMosaic.Lib.ValueLayout
import Idealize.ShloMosaic.PureOps.Ideal.Laws

noncomputable section

namespace Cert.PatchPool

open Idealize.ShloMosaic Idealize.ShloMosaic.ValueIdx

/-! ## The membership weight -/

/-- Position `s` lies in the patch `[pb, pe)`: the conjunction of the two signed comparisons, as one bit. -/
def inPatch (pb pe : BitVec 32) (s : ℕ) : BitVec 1 :=
  IntOp.andi (IntOp.cmpi .sge (BitVec.ofNat 32 s) pb) (IntOp.cmpi .slt (BitVec.ofNat 32 s) pe)

/-- The weight of position `s`: the float one inside the patch, the float zero outside. -/
def wgt (pb pe : BitVec 32) (s : ℕ) : EReal :=
  Scalar.select (inPatch pb pe s) (Ideal.ofBits .f32 0x3F800000#32) (Ideal.ofBits .f32 0x00000000#32)

theorem ofBits_one_f32 : Ideal.ofBits .f32 0x3F800000#32 = 1 := IdealRules.sign_bit.ideal_onePat .f32

/-- Selecting one or zero by a bit is converting the bit to a float; the conjunction's order does not matter. -/
theorem select_and_eq_toNat : ∀ a c : BitVec 1,
    (Scalar.select (IntOp.andi a c) (Ideal.ofBits .f32 0x3F800000#32) (Ideal.ofBits .f32 0x00000000#32) : EReal)
      = (((IntOp.andi c a).toNat : ℝ) : EReal) := by
  intro a c
  rw [ofBits_one_f32, Ideal.ofBits_zero_f32]
  rcases BitVec.eq_zero_or_eq_one a with rfl | rfl <;> rcases BitVec.eq_zero_or_eq_one c with rfl | rfl <;>
    simp [Scalar.select, IntOp.andi]

/-- The weight as the reference spells it: the conjunction (in its order) converted unsigned. -/
theorem wgt_eq_toNat (pb pe : BitVec 32) (s : ℕ) :
    wgt pb pe s = (((IntOp.andi (IntOp.cmpi .slt (BitVec.ofNat 32 s) pe) (IntOp.cmpi .sge (BitVec.ofNat 32 s) pb)).toNat : ℝ) : EReal) :=
  select_and_eq_toNat _ _

/-! ## The masked sum and its tiles -/

/-- The masked sum of a column over the first `n` positions. -/
def psum (pb pe : BitVec 32) (col : ℕ → EReal) (n : ℕ) : EReal :=
  ∑ s ∈ Finset.range n, wgt pb pe s * col s

/-- One tile's contribution: positions `2048 j … 2048 j + 2047`. -/
def tileSum (pb pe : BitVec 32) (col : ℕ → EReal) (j : ℕ) : EReal :=
  ∑ k : Fin 2048, wgt pb pe (2048 * j + k.val) * col (2048 * j + k.val)

theorem psum_zero (pb pe : BitVec 32) (col : ℕ → EReal) : psum pb pe col 0 = 0 := by
  simp [psum]

/-- Adding tile `j` to the sum over the first `j` tiles gives the sum over the first `j + 1`. -/
theorem psum_add_tile (pb pe : BitVec 32) (col : ℕ → EReal) (j : ℕ) :
    psum pb pe col (2048 * j) + tileSum pb pe col j = psum pb pe col (2048 * (j + 1)) := by
  unfold psum tileSum
  rw [show 2048 * (j + 1) = 2048 * j + 2048 by ring, Finset.sum_range_add,
    Fin.sum_univ_eq_sum_range (fun k => wgt pb pe (2048 * j + k) * col (2048 * j + k)) 2048]

/-- The first tile alone, added to zero. -/
theorem zero_add_tile (pb pe : BitVec 32) (col : ℕ → EReal) :
    0 + tileSum pb pe col 0 = psum pb pe col (2048 * (0 + 1)) := by
  rw [← psum_add_tile, psum_zero]

/-- The whole sum over a `Fin`-indexed column is the masked sum over all 8192 positions. -/
theorem sum_fin_eq_psum (pb pe : BitVec 32) (col : ℕ → EReal) :
    ∑ s : Fin 8192, wgt pb pe s.val * col s.val = psum pb pe col 8192 :=
  Fin.sum_univ_eq_sum_range (fun s => wgt pb pe s * col s) 8192

/-! ## The position words -/

/-- A tile's lane number plus the tile's base, as 32-bit words, is the word of the position. -/
theorem pos_word (j k : ℕ) (hj : j < 4) (hk : k < 2048) :
    IntOp.addi (BitVec.ofNat 32 k) (Scalar.muli (BitVec.ofNat 32 j) 2048#32) = BitVec.ofNat 32 (2048 * j + k) := by
  apply BitVec.eq_of_toNat_eq
  simp only [IntOp.addi, Scalar.muli, IntOp.muli, BitVec.toNat_add, BitVec.toNat_mul, BitVec.toNat_ofNat]
  omega

/-! ## The divisor -/

/-- The end minus the begin is the length: `e − (e − a) = a` on words. -/
theorem end_sub_begin (e a : BitVec 32) : IntOp.subi e (IntOp.subi e a) = a := by
  unfold IntOp.subi
  bv_omega

/-- Clamping the converted length below at one is converting the length clamped below at one. -/
theorem clamp_convert (a : BitVec 32) :
    max (((a.toInt : ℝ)) : EReal) (Ideal.ofBits .f32 0x3F800000#32) = (((IntOp.maxsi a 1#32).toInt : ℝ) : EReal) := by
  rw [ofBits_one_f32]
  unfold IntOp.maxsi
  by_cases h : (1#32 : BitVec 32).slt a = true
  · rw [if_pos h]
    have h1 : (1 : ℤ) < a.toInt := by simpa [BitVec.slt] using h
    have h2 : (1 : ℝ) ≤ (a.toInt : ℝ) := by exact_mod_cast h1.le
    exact max_eq_left (by exact_mod_cast h2)
  · rw [if_neg h]
    have h1 : a.toInt ≤ 1 := by simpa [BitVec.slt] using h
    have h2 : (a.toInt : ℝ) ≤ 1 := by exact_mod_cast h1
    have h3 : ((1#32 : BitVec 32).toInt : ℝ) = 1 := by norm_num [BitVec.toInt]
    rw [h3]
    exact max_eq_right (by exact_mod_cast h2)

/-! ## The result -/

/-- Column `(b, ·, d)` of the batch as a function of the position number (zero past the end, never read). -/
def colOf (X : (⟨3, ![16, 8192, 256]⟩ : Shape).Idx → EReal) (b : Fin 16) (d : Fin 256) (s : ℕ) : EReal :=
  if h : s < 8192 then X (ix3 b ⟨s, h⟩ d) else 0

theorem colOf_val (X : (⟨3, ![16, 8192, 256]⟩ : Shape).Idx → EReal) (b : Fin 16) (d : Fin 256) (s : Fin 8192) :
    colOf X b d s.val = X (ix3 b s d) := by
  unfold colOf; rw [dif_pos s.isLt]

/-- The pooled value at `(b, p, d)`: the masked column sum over the patch's window, over the clamped length;
    `e` the running sums (the ends) and `a` the lengths. -/
def pooledAt (X : (⟨3, ![16, 8192, 256]⟩ : Shape).Idx → EReal) (e a : (⟨2, ![16, 256]⟩ : Shape).Idx → BitVec 32)
    (b : Fin 16) (p : Fin 256) (d : Fin 256) : EReal :=
  Ideal.div (psum (IntOp.subi (e (ix2 b p)) (a (ix2 b p))) (e (ix2 b p)) (colOf X b d) 8192)
    (((IntOp.maxsi (a (ix2 b p)) 1#32).toInt : ℝ) : EReal)

/-- The pooled array. -/
def pooled (X : (⟨3, ![16, 8192, 256]⟩ : Shape).Idx → EReal) (e a : (⟨2, ![16, 256]⟩ : Shape).Idx → BitVec 32) :
    (⟨3, ![16, 256, 256]⟩ : Shape).Idx → EReal :=
  fun j => pooledAt X e a (j 0) (j 1) (j 2)

/-! ## Layout operations at the shapes met here -/

section Layout
variable {α : Type}

/-- `[a, b] → [a, b, 1]` along axes 0 and 1. -/
theorem bcast_ab_ab1 {a b : ℕ} (ha : a ≠ 1) (hb : b ≠ 1) (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) :=
  broadcastInDim_apply _ h x _ _ fun ax => match ax with
    | ⟨0, _⟩ => by show i.val = if a = 1 then 0 else i.val; rw [if_neg ha]
    | ⟨1, _⟩ => by show j.val = if b = 1 then 0 else j.val; rw [if_neg hb]

/-- `[a, b, 1] → [a, b, c]` along all three axes: the unit axis is read at zero. -/
theorem bcast_ab1_abc {a b c : ℕ} (ha : a ≠ 1) (hb : b ≠ 1) (x : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h x (ix3 i j k) = x (ix3 i j (0 : Fin 1)) :=
  broadcastInDim_apply _ h x _ _ fun ax => match ax with
    | ⟨0, _⟩ => by show i.val = if a = 1 then 0 else i.val; rw [if_neg ha]
    | ⟨1, _⟩ => by show j.val = if b = 1 then 0 else j.val; rw [if_neg hb]
    | ⟨2, _⟩ => by show (0 : ℕ) = if (1 : ℕ) = 1 then 0 else k.val; rw [if_pos rfl]

/-- A column `[a, 1]` broadcast to `[a, b]` reads, at `(p, c)`, the column at `p`. -/
theorem bcastTo_a1_ab {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val; rw [if_neg ha]
  | ⟨1, _⟩ => show (0 : ℕ) = if (1 : ℕ) = 1 then 0 else c.val; rw [if_pos rfl]

end Layout

end Cert.PatchPool

end
-- ==== Proof.KernelPayload.lean ====
/-
  The kernel body's two stored values, read at an index on the extended reals.

  The accumulator store holds, at `(p, d)`, what the accumulator held there plus the tile's masked column sum:
  the matrix unit's product of the [256, 2048] membership mask of the tile's positions with the tile's
  [2048, 256] block of the batch, into a zero accumulator — a plain sum over the tile's 2048 lanes, the mask entry
  at `(p, k)` the weight of position `2048·j + k` against patch `p`'s begin and end (`j` the tile number: the
  second grid coordinate).  The output store holds the accumulator over the patch length — end minus begin,
  converted and clamped below at one.  Changes of float format are the identity here.
-/
import proofs.«101690_j46952582480042_1_alg».proof.Proof.Gen.KernelIdeal.Skeleton
import proofs.«101690_j46952582480042_1_alg».proof.Proof.Spec
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.PatchPool

/-! ## The tile's positions and its membership mask -/

/-- The tile's position words, one row: lane number plus the tile's base `2048 · j`. -/
def posRow (i : grid0.Coords) : IVec S1x2048 32 :=
  addi (iota .tc S1x2048 32 [1] iota_S1x2048_d1_w32) (broadcast S1x2048 (Scalar.muli (BitVec.ofNat 32 (i 1).val) 2048#32))

theorem posRow_apply (i : grid0.Coords) (hi : (i 1).val < 4) (k : Fin 2048) :
    posRow i (ix2 (0 : Fin 1) k) = BitVec.ofNat 32 (2048 * (i 1).val + k.val) := by
  show IntOp.addi (BitVec.ofNat 32 (0 * 2048 + k.val)) (Scalar.muli (BitVec.ofNat 32 (i 1).val) 2048#32) = _
  rw [Nat.zero_mul, Nat.zero_add]
  exact pos_word _ _ hi k.isLt

/-- The membership mask of the tile, as the body builds it: both comparisons of the broadcast positions against
    the broadcast begins `x0` and ends `x1`, their conjunction selecting the float one or zero. -/
def maskTile (i : grid0.Coords) (x0 x1 : Vec Ideal S1x256x1 .i32) : FVec Ideal S256x2048 .f32 :=
  select
    (andi
      (cmpi .sge (broadcastTo S256x2048 (posRow i) broadcasts_S1x2048_S256x2048)
        (broadcastTo S256x2048 (shapeCast S256x1 x0 shapeCasts_S1x256x1_S256x1) broadcasts_S256x1_S256x2048))
      (cmpi .slt (broadcastTo S256x2048 (posRow i) broadcasts_S1x2048_S256x2048)
        (broadcastTo S256x2048 (shapeCast S256x1 x1 shapeCasts_S1x256x1_S256x1) broadcasts_S256x1_S256x2048)))
    (broadcast S256x2048 (Scalar.ofBits .f32 0x3F800000#32))
    (broadcast S256x2048 (Scalar.ofBits .f32 0x00000000#32))

/-- A begin or end column broadcast along the lanes reads its row's word. -/
theorem col_apply (x : Vec Ideal S1x256x1 .i32) (p : Fin 256) (k : Fin 2048) :
    broadcastTo S256x2048 (shapeCast S256x1 x shapeCasts_S1x256x1_S256x1) broadcasts_S256x1_S256x2048 (ix2 p k)
      = x (ix3 (0 : Fin 1) p (0 : Fin 1)) :=
  (bcastTo_a1_ab (by decide) _ _ p k).trans (shapeCast_1ab_ab_apply x _ p (0 : Fin 1))

/-- The mask entry at `(p, k)` is the weight of position `2048·j + k` against row `p`'s begin and end. -/
theorem maskTile_apply (i : grid0.Coords) (hi : (i 1).val < 4) (x0 x1 : Vec Ideal S1x256x1 .i32) (p : Fin 256) (k : Fin 2048) :
    maskTile i x0 x1 (ix2 p k)
      = wgt (x0 (ix3 (0 : Fin 1) p (0 : Fin 1))) (x1 (ix3 (0 : Fin 1) p (0 : Fin 1))) (2048 * (i 1).val + k.val) := by
  have hpos : broadcastTo S256x2048 (posRow i) broadcasts_S1x2048_S256x2048 (ix2 p k)
      = BitVec.ofNat 32 (2048 * (i 1).val + k.val) :=
    (broadcastTo_1b_ab_apply _ _ p k).trans (posRow_apply i hi k)
  show Scalar.select
      (IntOp.andi
        (IntOp.cmpi .sge (broadcastTo S256x2048 (posRow i) broadcasts_S1x2048_S256x2048 (ix2 p k))
          (broadcastTo S256x2048 (shapeCast S256x1 x0 shapeCasts_S1x256x1_S256x1) broadcasts_S256x1_S256x2048 (ix2 p k)))
        (IntOp.cmpi .slt (broadcastTo S256x2048 (posRow i) broadcasts_S1x2048_S256x2048 (ix2 p k))
          (broadcastTo S256x2048 (shapeCast S256x1 x1 shapeCasts_S1x256x1_S256x1) broadcasts_S256x1_S256x2048 (ix2 p k))))
      (Ideal.ofBits .f32 0x3F800000#32) (Ideal.ofBits .f32 0x00000000#32) = _
  rw [hpos, col_apply x0 p k, col_apply x1 p k]
  rfl

/-! ## The accumulator store -/

/-- The stored accumulator as the accumulator plus the matrix product of the mask with the tile's block. -/
theorem pay4_eq (i : grid0.Coords) (x0 x1 : Vec Ideal S1x256x1 .i32) (x2 : Vec Ideal S1x2048x256 .f32) (acc : Vec Ideal S256x256 .f32) :
    k0_pay4 (F := Ideal) i x0 x1 x2 acc
      = addf acc (matmul dot_S256x2048_S2048x256_S256x256_1_0_0_1_n_n none
          (truncf .bf16 (maskTile i x0 x1) bitsLt_bf16_f32)
          (truncf .bf16 (shapeCast S2048x256 x2 shapeCasts_S1x2048x256_S2048x256) bitsLt_bf16_f32)
          (constant S256x256 .f32 0x00000000#32)) := by
  unfold k0_pay4 k0_pay2 k0_pay3
  exact shapeCast_self _ _

/-- The stored accumulator at `(p, d)`: what was there plus the tile's masked column sum over its 2048 lanes. -/
theorem pay4_apply (i : grid0.Coords) (hi : (i 1).val < 4) (x0 x1 : Vec Ideal S1x256x1 .i32) (x2 : Vec Ideal S1x2048x256 .f32)
    (acc : Vec Ideal S256x256 .f32) (p d : Fin 256) :
    k0_pay4 (F := Ideal) i x0 x1 x2 acc (ix2 p d)
      = acc (ix2 p d) + ∑ k : Fin 2048, wgt (x0 (ix3 (0 : Fin 1) p (0 : Fin 1))) (x1 (ix3 (0 : Fin 1) p (0 : Fin 1))) (2048 * (i 1).val + k.val)
          * x2 (ix3 (0 : Fin 1) k d) := by
  rw [pay4_eq]
  show acc (ix2 p d) + FloatOps.matmul (F := Ideal) dot_S256x2048_S2048x256_S256x256_1_0_0_1_n_n none _ _ (constant S256x256 .f32 0x00000000#32) (ix2 p d) = _
  refine congrArg (acc (ix2 p d) + ·) ?_
  refine (Ideal.matmul_constant_zero_apply _ none _ _ (ix2 p d)).trans ?_
  refine (Equiv.sum_comp (contrEquiv1 dot_S256x2048_S2048x256_S256x256_1_0_0_1_n_n 2048 rfl rfl).symm _).symm.trans ?_
  refine Finset.sum_congr rfl fun k _ => ?_
  have hL : dot_S256x2048_S2048x256_S256x256_1_0_0_1_n_n.lhsIdx (ix2 p d) ((contrEquiv1 dot_S256x2048_S2048x256_S256x256_1_0_0_1_n_n 2048 rfl rfl).symm k) = ix2 p k :=
    funext fun a => Fin.ext (by
      match a with
      | ⟨0, _⟩ => rfl
      | ⟨1, _⟩ => exact (DotDims.lhsIdx_val_of_single _ rfl _ _).trans (contrEquiv1_symm_val _ 2048 rfl rfl k))
  have hR : dot_S256x2048_S2048x256_S256x256_1_0_0_1_n_n.rhsIdx (ix2 p d) ((contrEquiv1 dot_S256x2048_S2048x256_S256x256_1_0_0_1_n_n 2048 rfl rfl).symm k) = ix2 k d :=
    funext fun a => Fin.ext (by
      match a with
      | ⟨0, _⟩ => exact (DotDims.rhsIdx_val_of_single _ rfl _ _).trans (contrEquiv1_symm_val _ 2048 rfl rfl k)
      | ⟨1, _⟩ => rfl)
  rw [hL, hR]
  show maskTile i x0 x1 (ix2 p k) * shapeCast S2048x256 x2 shapeCasts_S1x2048x256_S2048x256 (ix2 k d) = _
  rw [maskTile_apply i hi, shapeCast_1ab_ab_apply]

/-- The zero splat the first tile resets the accumulator to is zero everywhere. -/
theorem pay1_apply (j : S256x256.Idx) : k0_pay1 (F := Ideal) j = 0 := by
  unfold k0_pay1
  refine (congrFun (shapeCast_self _ _) j).trans ?_
  exact Ideal.ofBits_zero_f32

/-! ## The output store -/

/-- The stored output at `(·, p, d)`: the accumulator there over the converted difference end − begin clamped below at one. -/
theorem pay5_apply (x0 x1 : Vec Ideal S1x256x1 .i32) (acc : Vec Ideal S256x256 .f32) (u : Fin 1) (p d : Fin 256) :
    k0_pay5 (F := Ideal) x0 x1 acc (ix3 u p d)
      = Ideal.div (acc (ix2 p d))
          (max ((((IntOp.subi (x1 (ix3 (0 : Fin 1) p (0 : Fin 1))) (x0 (ix3 (0 : Fin 1) p (0 : Fin 1)))).toInt : ℝ)) : EReal)
            (Ideal.ofBits .f32 0x3F800000#32)) := by
  unfold k0_pay5 k0_pay2 k0_pay3
  refine (shapeCast_ab_1ab_apply _ _ u p d).trans ?_
  show Ideal.div (acc (ix2 p d)) (broadcastTo S256x256 _ broadcasts_S256x1_S256x256 (ix2 p d)) = _
  rw [bcastTo_a1_ab (by decide) _ _ p d]
  show Ideal.div (acc (ix2 p d))
      (max ((((IntOp.subi (shapeCast S256x1 x1 shapeCasts_S1x256x1_S256x1 (ix2 p (0 : Fin 1)))
        (shapeCast S256x1 x0 shapeCasts_S1x256x1_S256x1 (ix2 p (0 : Fin 1)))).toInt : ℝ)) : EReal) (Ideal.ofBits .f32 0x3F800000#32)) = _
  rw [shapeCast_1ab_ab_apply, shapeCast_1ab_ab_apply]

end Cert.KernelIdeal.Payload

end
-- ==== Proof.KernelValue.lean ====
/-
  The kernel's result array, as one function of its two arguments.

  The grid runs batch element by batch element (`b = t / 4`), four tiles each (`j = t mod 4`).  The begin and end
  blocks a point sees are row `b` of the begins and ends the host computed before the launch; the batch block is
  rows `2048 j … 2048 j + 2047` of batch element `b`.  By induction on the point the accumulator scratch holds,
  after tile `j`, the masked column sums over the first `2048 (j + 1)` positions: the first tile adds its tile to
  the zero block, every later one adds its tile to what the tile before left, and a sum over a range splits at any
  point.  The last tile writes the accumulator over the clamped length to the output block, which is written back
  to row `b` of the result; the sixteen written blocks cover the array.  The divisor meets the reference's because
  end − (end − length) is the length on 32-bit words and conversion commutes with clamping at one.
-/
import proofs.«101690_j46952582480042_1_alg».proof.Proof.Gen.KernelIdeal.Value
import proofs.«101690_j46952582480042_1_alg».proof.Proof.KernelPieces
import proofs.«101690_j46952582480042_1_alg».proof.Proof.KernelPayload
import proofs.«101690_j46952582480042_1_alg».proof.Proof.Spec
import Idealize.ShloMosaic.Lib.Pipeline.Value
import Idealize.ShloMosaic.Lib.StableHlo.Run
import Idealize.ShloMosaic.Lib.ValueIdx

noncomputable section

namespace Cert.KernelIdeal.PoolValue

open Cert.KernelIdeal Cert.KernelIdeal.Gen Idealize.ShloMosaic Idealize.ShloMosaic.TcCoe Idealize.SL.Sem
open Idealize.ShloMosaic.ValueIdx Cert.PatchPool Idealize.ShloMosaic.StableHlo
open Idealize.ShloMosaic.Pipeline (Dat)

variable (m : (ℓ : Loc nD τ sig) → Buf (Elt Ideal) ℓ) (ρ : Dev nD → PrngReg)

/-! ## The host prologue: begins and ends as the region finds them -/

/-- The running sum of the lengths along the patch axis, as the program spells it (a windowed integer sum from zero). -/
def ends (a1 : IVec S16x256 32) : IVec S16x256 32 :=
  Host.reduceWindow IntOp.addi ![1, 256] ![1, 1] ![0, 255] ![0, 0] a1 (broadcastInDim S_ ![] bcast_S_S_ (constantI S_ 32 0#32))
    reduceWindows_S16x256_S16x256_w1s1p0_0_w256s1p255_0 h_S_

/-- The batch and the lengths at launch. -/
abbrev XA (c : Dev nD) : FVec Ideal S16x8192x256 .f32 := m ((c : Thread nD τ).loc main_arg0)
abbrev LA (c : Dev nD) : IVec S16x256 32 := m ((c : Thread nD τ).loc main_arg1)

/-- The begins array at region entry: ends minus lengths, with a trailing unit axis. -/
theorem V_begins (c : Dev nD) : (V m c main_v2 : S16x256x1.Idx → BitVec 32)
    = broadcastInDim S16x256x1 ![0, 1] bcast_S16x256_S16x256x1_0_1 (subi (ends (LA m c)) (LA m c)) := by
  dsimp only [V]
  simp only [hostOps0, hostOps0_1, List.flatten_cons, List.flatten_nil, List.append_nil, List.cons_append, List.nil_append]
  unfold ends
  after_results
  simp only [TRef.toBuf, TRef.ofBuf, cast_eq]

/-- The ends array at region entry: the running sums, with a trailing unit axis. -/
theorem V_ends (c : Dev nD) : (V m c main_v3 : S16x256x1.Idx → BitVec 32)
    = broadcastInDim S16x256x1 ![0, 1] bcast_S16x256_S16x256x1_0_1 (ends (LA m c)) := by
  dsimp only [V]
  simp only [hostOps0, hostOps0_1, List.flatten_cons, List.flatten_nil, List.append_nil, List.cons_append, List.nil_append]
  unfold ends
  after_results
  simp only [TRef.toBuf, TRef.ofBuf, cast_eq]

/-- Patch `(b, p)`'s begin and end as the region finds them. -/
abbrev PB (c : Dev nD) (b : Fin 16) (p : Fin 256) : BitVec 32 := V m c main_v2 (ix3 b p (0 : Fin 1))
abbrev PE (c : Dev nD) (b : Fin 16) (p : Fin 256) : BitVec 32 := V m c main_v3 (ix3 b p (0 : Fin 1))

theorem PB_eq (c : Dev nD) (b : Fin 16) (p : Fin 256) :
    PB m c b p = IntOp.subi (ends (LA m c) (ix2 b p)) (LA m c (ix2 b p)) := by
  show V m c main_v2 (ix3 b p (0 : Fin 1)) = _
  rw [V_begins]
  exact bcast_ab_ab1 (by decide) (by decide) _ _ b p (0 : Fin 1)

theorem PE_eq (c : Dev nD) (b : Fin 16) (p : Fin 256) : PE m c b p = ends (LA m c) (ix2 b p) := by
  show V m c main_v3 (ix3 b p (0 : Fin 1)) = _
  rw [V_ends]
  exact bcast_ab_ab1 (by decide) (by decide) _ _ b p (0 : Fin 1)

/-! ## Which block each point sees -/

/-- The printed index maps over the grid: every window sits at batch element `t / 4`; the batch window also at tile
    `t mod 4`, which is the body's second coordinate. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0
    ∧ ((grid0.coords t) 1).val = t.val % 4 :=
  (by decide +kernel : ∀ t : Fin grid0.N, _)

/-- The begin block at point `t` is row `t / 4` of the begins. -/
theorem begins_blk (c : Dev nD) (t : Fin cfg0.N) (b : Fin 16) (hb : b.val = t.val / 4) (p : Fin 256) :
    (iblk m c 0 t : Vec Ideal S1x256x1 .i32) (ix3 (0 : Fin 1) p (0 : Fin 1)) = PB m c b p := by
  obtain ⟨e0, e1, e2, -⟩ := idx_facts t
  show V m c main_v2 (((cfg0.win 0).blk t).view.emb (ix3 (0 : Fin 1) p (0 : Fin 1))) = V m c main_v2 (ix3 b p (0 : Fin 1))
  refine congrArg (V m c main_v2) (funext fun a => Fin.ext ?_)
  match a with
  | ⟨0, _⟩ => show win0_0.index t (0 : Fin 3) * 1 + 1 * 0 = b.val; omega
  | ⟨1, _⟩ => show win0_0.index t (1 : Fin 3) * 256 + 1 * p.val = p.val; omega
  | ⟨2, _⟩ => show win0_0.index t (2 : Fin 3) * 1 + 1 * 0 = 0; omega

/-- The end block at point `t` is row `t / 4` of the ends. -/
theorem ends_blk (c : Dev nD) (t : Fin cfg0.N) (b : Fin 16) (hb : b.val = t.val / 4) (p : Fin 256) :
    (iblk m c 1 t : Vec Ideal S1x256x1 .i32) (ix3 (0 : Fin 1) p (0 : Fin 1)) = PE m c b p := by
  obtain ⟨-, -, -, e0, e1, e2, -⟩ := idx_facts t
  show V m c main_v3 (((cfg0.win 1).blk t).view.emb (ix3 (0 : Fin 1) p (0 : Fin 1))) = V m c main_v3 (ix3 b p (0 : Fin 1))
  refine congrArg (V m c main_v3) (funext fun a => Fin.ext ?_)
  match a with
  | ⟨0, _⟩ => show win0_1.index t (0 : Fin 3) * 1 + 1 * 0 = b.val; omega
  | ⟨1, _⟩ => show win0_1.index t (1 : Fin 3) * 256 + 1 * p.val = p.val; omega
  | ⟨2, _⟩ => show win0_1.index t (2 : Fin 3) * 1 + 1 * 0 = 0; omega

/-- The batch block at point `t`, lane `k`, is position `2048 (t mod 4) + k` of batch element `t / 4`. -/
theorem batch_blk (c : Dev nD) (t : Fin cfg0.N) (b : Fin 16) (hb : b.val = t.val / 4) (k : Fin 2048) (d : Fin 256) :
    (iblk m c 2 t : Vec Ideal S1x2048x256 .f32) (ix3 (0 : Fin 1) k d) = colOf (XA m c) b d (2048 * (t.val % 4) + k.val) := by
  obtain ⟨-, -, -, -, -, -, e0, e1, e2, -⟩ := idx_facts t
  have hk : 2048 * (t.val % 4) + k.val < 8192 := by have := k.isLt; omega
  unfold colOf
  rw [dif_pos hk]
  show V m c main_arg0 (((cfg0.win 2).blk t).view.emb (ix3 (0 : Fin 1) k d)) = m ((c : Thread nD τ).loc main_arg0) _
  rw [V_main_arg0]
  refine congrArg (m ((c : Thread nD τ).loc main_arg0)) (funext fun a => Fin.ext ?_)
  match a with
  | ⟨0, _⟩ => show win0_2.index t (0 : Fin 3) * 1 + 1 * 0 = b.val; omega
  | ⟨1, _⟩ => show win0_2.index t (1 : Fin 3) * 2048 + 1 * k.val = 2048 * (t.val % 4) + k.val; omega
  | ⟨2, _⟩ => show win0_2.index t (2 : Fin 3) * 256 + 1 * d.val = d.val; omega

/-- The tile's masked column sum at point `t`, in terms of the arrays. -/
theorem tile_eq (c : Dev nD) (t : Fin cfg0.N) (b : Fin 16) (hb : b.val = t.val / 4) (p d : Fin 256) :
    ∑ k : Fin 2048, wgt ((iblk m c 0 t : Vec Ideal S1x256x1 .i32) (ix3 (0 : Fin 1) p (0 : Fin 1)))
        ((iblk m c 1 t : Vec Ideal S1x256x1 .i32) (ix3 (0 : Fin 1) p (0 : Fin 1))) (2048 * ((grid0.coords t) 1).val + k.val)
        * (iblk m c 2 t : Vec Ideal S1x2048x256 .f32) (ix3 (0 : Fin 1) k d)
      = tileSum (PB m c b p) (PE m c b p) (colOf (XA m c) b d) (t.val % 4) := by
  obtain ⟨-, -, -, -, -, -, -, -, -, -, -, -, eg⟩ := idx_facts t
  unfold tileSum
  rw [begins_blk m c t b hb p, ends_blk m c t b hb p, eg]
  exact Finset.sum_congr rfl fun k _ => by rw [batch_blk m c t b hb k d]

/-! ## What the scratch and the output block hold, point by point -/

/-- At a batch element's first tile the scratch ends at the accumulator store over the zero block. -/
theorem scratch_at_first (c : Dev nD) (t : Fin cfg0.N) (h0 : t.val % 4 = 0) :
    (outsAt0 m c t.val t.isLt).2 = k0_pay4 (grid0.coords t) (iblk m c 0 t) (iblk m c 1 t) (iblk m c 2 t) (k0_pay1 (F := Ideal)) := by
  have h1 : ¬t.val % 4 = 3 := by omega
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every later tile, over what the tile before left. -/
theorem scratch_at_next (c : Dev nD) (t : Fin cfg0.N) (h0 : ¬t.val % 4 = 0) :
    (outsAt0 m c t.val t.isLt).2 = k0_pay4 (grid0.coords t) (iblk m c 0 t) (iblk m c 1 t) (iblk m c 2 t)
      (outsAt0 m c (t.val - 1) (Nat.lt_of_le_of_lt (Nat.sub_le _ _) t.isLt)).2 := by
  by_cases h1 : t.val % 4 = 3
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a batch element's last tile the output block ends at the output store over the scratch just stored. -/
theorem out_at_last (c : Dev nD) (t : Fin cfg0.N) (h1 : t.val % 4 = 3) :
    (outsAt0 m c t.val t.isLt).1 = k0_pay5 (iblk m c 0 t) (iblk m c 1 t) (outsAt0 m c t.val t.isLt).2 := by
  have h0 : ¬t.val % 4 = 0 := by omega
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (congrArg (k0_pay5 (iblk m c 0 t) (iblk m c 1 t))
      (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm)

/-- THE ACCUMULATION: after point `n` (tile `n mod 4` of batch element `n / 4`) the scratch holds the masked
    column sums over the first `2048 (n mod 4 + 1)` positions. -/
theorem scratch_after (c : Dev nD) : ∀ (n : ℕ) (h : n < cfg0.N) (b : Fin 16), b.val = n / 4 → ∀ (p d : Fin 256),
    (outsAt0 m c n h).2 (ix2 p d) = psum (PB m c b p) (PE m c b p) (colOf (XA m c) b d) (2048 * (n % 4 + 1)) := by
  intro n
  induction n using Nat.strong_induction_on with
  | _ n ih =>
    intro h b hb p d
    have hN : n < 64 := lt_of_lt_of_eq h N_0
    obtain ⟨-, -, -, -, -, -, -, -, -, -, -, -, eg⟩ := idx_facts ⟨n, h⟩
    have hi : ((grid0.coords (⟨n, h⟩ : Fin cfg0.N)) 1).val < 4 := by rw [eg]; exact Nat.mod_lt _ (by decide)
    by_cases h0 : n % 4 = 0
    · rw [scratch_at_first m c ⟨n, h⟩ h0, Payload.pay4_apply _ hi, Payload.pay1_apply, tile_eq m c ⟨n, h⟩ b hb p d]
      show 0 + tileSum _ _ _ (n % 4) = _
      rw [h0]
      exact zero_add_tile _ _ _
    · rw [scratch_at_next m c ⟨n, h⟩ h0, Payload.pay4_apply _ hi, tile_eq m c ⟨n, h⟩ b hb p d]
      show (outsAt0 m c (n - 1) _).2 (ix2 p d) + tileSum _ _ _ (n % 4) = _
      rw [ih (n - 1) (by omega) _ b (by omega) p d, show (n - 1) % 4 + 1 = n % 4 by omega]
      exact psum_add_tile _ _ _ _

/-! ## The result array -/

/-- The result array: the pooled values of the batch, the running sums and the lengths at launch. -/
def result (c : Dev nD) : FVec Ideal S16x256x256 .f32 := pooled (XA m c) (ends (LA m c)) (LA m c)

/-- What a batch element's last tile leaves in the output block is row `t / 4` of the result. -/
theorem out_val (c : Dev nD) (t : Fin cfg0.N) (h1 : t.val % 4 = 3) (b : Fin 16) (hb : b.val = t.val / 4) (u : Fin 1) (p d : Fin 256) :
    (outsAt0 m c t.val t.isLt).1 (ix3 u p d) = pooledAt (XA m c) (ends (LA m c)) (LA m c) b p d := by
  rw [out_at_last m c t h1, Payload.pay5_apply, scratch_after m c t.val t.isLt b hb p d, h1,
    begins_blk m c t b hb p, ends_blk m c t b hb p]
  unfold pooledAt
  rw [PB_eq, PE_eq, end_sub_begin, clamp_convert]

/-- WHAT A WRITING POINT WRITES BACK is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN : t.val < 64 := lt_of_lt_of_eq t.isLt N_0
  obtain ⟨-, -, -, -, -, -, -, -, -, e0, e1, e2, -⟩ := idx_facts t
  have key : ∀ j : S1x256x256.Idx, (outsAt0 m c t.val t.isLt).1 j = result m c (((cfg0.win 3).blk t).view.emb j) := by
    intro j
    obtain ⟨u, p, d, rfl⟩ : ∃ (u : Fin 1) (p : Fin 256) (d : Fin 256), j = ix3 u p d := ⟨j 0, j 1, j 2, eq_ix3 j⟩
    have hemb : ((cfg0.win 3).blk t).view.emb (ix3 u p d) = ix3 (⟨t.val / 4, by omega⟩ : Fin 16) p d :=
      funext fun a => Fin.ext (by
        match a with
        | ⟨0, _⟩ => show win0_3.index t (0 : Fin 3) * 1 + 1 * u.val = t.val / 4; have := u.isLt; omega
        | ⟨1, _⟩ => show win0_3.index t (1 : Fin 3) * 256 + 1 * p.val = p.val; omega
        | ⟨2, _⟩ => show win0_3.index t (2 : Fin 3) * 256 + 1 * d.val = d.val; omega)
    rw [hemb]
    exact out_val m c t h1 ⟨t.val / 4, by omega⟩ rfl u p d
  rw [Value.flushed3]
  funext j
  exact key j

/-- An index of the result lies in point `t`'s block iff each coordinate lies in the block's range. -/
theorem mem_blk (t : Fin cfg0.N) (i : S16x256x256.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v4).slice (win0_3.rect t)).set ↔ _
  rw [View.set_slice_whole, Rect.mem_set_unit]
  exact Iff.rfl

/-- Row `b` of the result is written back by the last tile of batch element `b`. -/
theorem cover (i : S16x256x256.Idx) : ∃ t : Fin cfg0.N, (cfg0.win 3).flush t = true ∧ i ∈ ((cfg0.win 3).blk t).view.set := by
  have hi0 : (i 0).val < 16 := (i 0).isLt
  have hi1 : (i 1).val < 256 := (i 1).isLt
  have hi2 : (i 2).val < 256 := (i 2).isLt
  have hN : cfg0.N = 64 := N_0
  have ht : 4 * (i 0).val + 3 < cfg0.N := by omega
  obtain ⟨-, -, -, -, -, -, -, -, -, e0, e1, e2, -⟩ := idx_facts ⟨4 * (i 0).val + 3, ht⟩
  have e0' : win0_3.index (⟨4 * (i 0).val + 3, ht⟩ : Fin cfg0.N) (0 : Fin 3) = (i 0).val := by
    rw [e0]; show (4 * (i 0).val + 3) / 4 = (i 0).val; omega
  refine ⟨⟨4 * (i 0).val + 3, ht⟩, (flush0_3 _).mpr (by show (4 * (i 0).val + 3) % 4 = 3; omega), ?_⟩
  rw [mem_blk]
  intro a
  match a with
  | ⟨0, _⟩ => show win0_3.index (⟨4 * (i 0).val + 3, ht⟩ : Fin cfg0.N) (0 : Fin 3) * 1 ≤ (i 0).val ∧ (i 0).val < win0_3.index (⟨4 * (i 0).val + 3, ht⟩ : Fin cfg0.N) (0 : Fin 3) * 1 + 1; omega
  | ⟨1, _⟩ => show win0_3.index (⟨4 * (i 0).val + 3, ht⟩ : Fin cfg0.N) (1 : Fin 3) * 256 ≤ (i 1).val ∧ (i 1).val < win0_3.index (⟨4 * (i 0).val + 3, ht⟩ : Fin cfg0.N) (1 : Fin 3) * 256 + 256; omega
  | ⟨2, _⟩ => show win0_3.index (⟨4 * (i 0).val + 3, ht⟩ : Fin cfg0.N) (2 : Fin 3) * 256 ≤ (i 2).val ∧ (i 2).val < win0_3.index (⟨4 * (i 0).val + 3, ht⟩ : Fin cfg0.N) (2 : Fin 3) * 256 + 256; omega

/-- The result array after the run. -/
theorem final (c : Dev nD) : (dats m 0 c).arrAt 3 cfg0.N = result m c :=
  (dats m 0 c).arrAt_eq_of_cover 3 (result m c) (fun t hf => flushed_eq m c t hf) cover

/-- Every weakly fair execution of the kernel's program terminates with the result buffer at `result` of the launch
    contents, the arguments as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.PoolValue

end
-- ==== Proof.RefRun.lean ====
/-
  The reference program's run, read back as one term.

  The reference is a straight line of host operations: the running sum of the patch lengths along the patch axis (a
  windowed integer sum, called as a module-local function), the begins as ends minus lengths, the position iota compared
  against begins and ends, the conjunction converted to a float mask, one batched contraction of the mask with the
  batch over the sequence axis, and the quotient by the lengths clamped below at one.  Listed in order, every weakly
  fair execution ends with the result buffer at the composed term of the two arguments, the arguments unchanged.
-/
import proofs.«101690_j46952582480042_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The running sum of the lengths along the patch axis, as the program spells it: a windowed integer sum of window
    256 padded by 255 in front, from the zero word. Both programs apply exactly this term to the lengths; nothing
    below opens it. -/
def ends (a1 : IVec S16x256 32) : IVec S16x256 32 :=
  Host.reduceWindow IntOp.addi ![1, 256] ![1, 1] ![0, 255] ![0, 0] a1 (broadcastInDim S_ ![] bcast_S_S_ (constantI S_ 32 0#32))
    reduceWindows_S16x256_S16x256_w1s1p0_0_w256s1p255_0 h_S_

/-- The reference's result as one term of the batch `X` and the lengths `a1`. -/
def result (X : FVec F S16x8192x256 .f32) (a1 : IVec S16x256 32) : FVec F S16x256x256 .f32 :=
  Host.divf
    (Host.dotGeneral dot_S16x256x8192_S16x8192x256_S16x256x256_2_1_1_2_0_0 none
      (uitofp .f32 (andi
        (cmpi .slt (broadcastInDim S16x256x8192 ![0, 1, 2] bcast_S1x1x8192_S16x256x8192_0_1_2 (broadcastInDim S1x1x8192 ![2] bcast_S8192_S1x1x8192_2 (iotaInDim S8192 32 0)))
          (broadcastInDim S16x256x8192 ![0, 1, 2] bcast_S16x256x1_S16x256x8192_0_1_2 (broadcastInDim S16x256x1 ![0, 1] bcast_S16x256_S16x256x1_0_1 (ends a1))))
        (cmpi .sge (broadcastInDim S16x256x8192 ![0, 1, 2] bcast_S1x1x8192_S16x256x8192_0_1_2 (broadcastInDim S1x1x8192 ![2] bcast_S8192_S1x1x8192_2 (iotaInDim S8192 32 0)))
          (broadcastInDim S16x256x8192 ![0, 1, 2] bcast_S16x256x1_S16x256x8192_0_1_2 (broadcastInDim S16x256x1 ![0, 1] bcast_S16x256_S16x256x1_0_1 (subi (ends a1) a1)))))
        : FVec F S16x256x8192 .f32) X)
    (broadcastInDim S16x256x256 ![0, 1, 2] bcast_S16x256x1_S16x256x256_0_1_2 (broadcastInDim S16x256x1 ![0, 1] bcast_S16x256_S16x256x1_0_1
      (sitofp .f32 (maxsi a1 (broadcastInDim S16x256 ![] bcast_S_S16x256 (constantI S_ 32 1#32))) : FVec F S16x256 .f32)))

/-- @main's operations in order, the running-sum function's three listed at its call. -/
abbrev ops : List (HloOp τ sig (Elt F)) :=
  [
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_arg1 : TRef sig ⟨S16x256, .i32⟩) (.of main_call0_call0_v0 : TRef sig ⟨S_, .i32⟩) (.of main_v0 : TRef sig ⟨S16x256, .i32⟩) (fun x v => Host.reduceWindow IntOp.addi ![1, 256] ![1, 1] ![0, 255] ![0, 0] x v reduceWindows_S16x256_S16x256_w1s1p0_0_w256s1p255_0 h_S_),
    binary main_v0 main_arg1 main_v1 (subi : (⟨S16x256, .i32⟩ : BufTy).Contents (Elt F) → (⟨S16x256, .i32⟩ : BufTy).Contents (Elt F) → (⟨S16x256, .i32⟩ : BufTy).Contents (Elt F)),
    nullary main_v2 (iotaInDim S8192 32 0),
    unary main_v2 main_v3 (broadcastInDim S1x1x8192 ![2] bcast_S8192_S1x1x8192_2 : (⟨S8192, .i32⟩ : BufTy).Contents (Elt F) → (⟨S1x1x8192, .i32⟩ : BufTy).Contents (Elt F)),
    unary main_v0 main_v4 (broadcastInDim S16x256x1 ![0, 1] bcast_S16x256_S16x256x1_0_1 : (⟨S16x256, .i32⟩ : BufTy).Contents (Elt F) → (⟨S16x256x1, .i32⟩ : BufTy).Contents (Elt F)),
    unary main_v3 main_v5 (broadcastInDim S16x256x8192 ![0, 1, 2] bcast_S1x1x8192_S16x256x8192_0_1_2 : (⟨S1x1x8192, .i32⟩ : BufTy).Contents (Elt F) → (⟨S16x256x8192, .i32⟩ : BufTy).Contents (Elt F)),
    unary main_v4 main_v6 (broadcastInDim S16x256x8192 ![0, 1, 2] bcast_S16x256x1_S16x256x8192_0_1_2 : (⟨S16x256x1, .i32⟩ : BufTy).Contents (Elt F) → (⟨S16x256x8192, .i32⟩ : BufTy).Contents (Elt F)),
    binary main_v5 main_v6 main_v7 (cmpi .slt : (⟨S16x256x8192, .i32⟩ : BufTy).Contents (Elt F) → (⟨S16x256x8192, .i32⟩ : BufTy).Contents (Elt F) → (⟨S16x256x8192, .i1⟩ : BufTy).Contents (Elt F)),
    unary main_v2 main_v8 (broadcastInDim S1x1x8192 ![2] bcast_S8192_S1x1x8192_2 : (⟨S8192, .i32⟩ : BufTy).Contents (Elt F) → (⟨S1x1x8192, .i32⟩ : BufTy).Contents (Elt F)),
    unary main_v1 main_v9 (broadcastInDim S16x256x1 ![0, 1] bcast_S16x256_S16x256x1_0_1 : (⟨S16x256, .i32⟩ : BufTy).Contents (Elt F) → (⟨S16x256x1, .i32⟩ : BufTy).Contents (Elt F)),
    unary main_v8 main_v10 (broadcastInDim S16x256x8192 ![0, 1, 2] bcast_S1x1x8192_S16x256x8192_0_1_2 : (⟨S1x1x8192, .i32⟩ : BufTy).Contents (Elt F) → (⟨S16x256x8192, .i32⟩ : BufTy).Contents (Elt F)),
    unary main_v9 main_v11 (broadcastInDim S16x256x8192 ![0, 1, 2] bcast_S16x256x1_S16x256x8192_0_1_2 : (⟨S16x256x1, .i32⟩ : BufTy).Contents (Elt F) → (⟨S16x256x8192, .i32⟩ : BufTy).Contents (Elt F)),
    binary main_v10 main_v11 main_v12 (cmpi .sge : (⟨S16x256x8192, .i32⟩ : BufTy).Contents (Elt F) → (⟨S16x256x8192, .i32⟩ : BufTy).Contents (Elt F) → (⟨S16x256x8192, .i1⟩ : BufTy).Contents (Elt F)),
    binary main_v7 main_v12 main_v13 (andi : (⟨S16x256x8192, .i1⟩ : BufTy).Contents (Elt F) → (⟨S16x256x8192, .i1⟩ : BufTy).Contents (Elt F) → (⟨S16x256x8192, .i1⟩ : BufTy).Contents (Elt F)),
    unary main_v13 main_v14 (uitofp .f32 : (⟨S16x256x8192, .i1⟩ : BufTy).Contents (Elt F) → (⟨S16x256x8192, .f32⟩ : BufTy).Contents (Elt F)),
    binary main_v14 main_arg0 main_v15 ((fun l r => Host.dotGeneral dot_S16x256x8192_S16x8192x256_S16x256x256_2_1_1_2_0_0 none l r) : (⟨S16x256x8192, .f32⟩ : BufTy).Contents (Elt F) → (⟨S16x8192x256, .f32⟩ : BufTy).Contents (Elt F) → (⟨S16x256x256, .f32⟩ : BufTy).Contents (Elt F)),
    nullary main_c (constantI S_ 32 1#32),
    unary main_c main_v16 (broadcastInDim S16x256 ![] bcast_S_S16x256 : (⟨S_, .i32⟩ : BufTy).Contents (Elt F) → (⟨S16x256, .i32⟩ : BufTy).Contents (Elt F)),
    binary main_arg1 main_v16 main_v17 (maxsi : (⟨S16x256, .i32⟩ : BufTy).Contents (Elt F) → (⟨S16x256, .i32⟩ : BufTy).Contents (Elt F) → (⟨S16x256, .i32⟩ : BufTy).Contents (Elt F)),
    unary main_v17 main_v18 (sitofp .f32 : (⟨S16x256, .i32⟩ : BufTy).Contents (Elt F) → (⟨S16x256, .f32⟩ : BufTy).Contents (Elt F)),
    unary main_v18 main_v19 (broadcastInDim S16x256x1 ![0, 1] bcast_S16x256_S16x256x1_0_1 : (⟨S16x256, .f32⟩ : BufTy).Contents (Elt F) → (⟨S16x256x1, .f32⟩ : BufTy).Contents (Elt F)),
    unary main_v19 main_v20 (broadcastInDim S16x256x256 ![0, 1, 2] bcast_S16x256x1_S16x256x256_0_1_2 : (⟨S16x256x1, .f32⟩ : BufTy).Contents (Elt F) → (⟨S16x256x256, .f32⟩ : BufTy).Contents (Elt F)),
    binary main_v15 main_v20 main_v21 (Host.divf : (⟨S16x256x256, .f32⟩ : BufTy).Contents (Elt F) → (⟨S16x256x256, .f32⟩ : BufTy).Contents (Elt F) → (⟨S16x256x256, .f32⟩ : BufTy).Contents (Elt F)) ]

/-- @main is that straight line: the called functions unfolded at their calls, sequencing reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., unary_bufs_sub .., unary_bufs_sub .., binary_bufs_sub ..⟩

/-- Every weakly fair execution of the reference terminates with the result buffer at `result` of the launch
    contents of the two arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (by unfold result ends; after_results; simp only [TRef.toBuf, TRef.ofBuf, cast_eq]),
      (h c main_arg0).trans (by after_results),
      (h c main_arg1).trans (by after_results)⟩)
    (run_seq scopedRefs_eq scopedSems_eq defs main (fun _ => ops) main_eq (fun _ => ops_sub) m ρ)

end Cert.ReferenceIdeal.HandRun

end
-- ==== Proof.RefValue.lean ====
/-
  The reference's term, read at an index, is the pooled value.

  At `(b, p, d)` the batched contraction is the sum over the 8192 positions `s` of the converted conjunction at
  `(b, p, s)` times `X[b, s, d]`; the conjunction compares the position word with the broadcast end and begin of
  patch `(b, p)`, so the factor is the membership weight; the divisor is the broadcast of the converted clamped
  length.  Nothing here needs the inputs finite.
-/
import proofs.«101690_j46952582480042_1_alg».proof.Proof.RefRun
import proofs.«101690_j46952582480042_1_alg».proof.Proof.Spec
import Idealize.ShloMosaic.Lib.ValueIdx
import Idealize.ShloMosaic.PureOps.Ideal.Laws

noncomputable section

namespace Cert.ReferenceIdeal.HandValue

open Cert.ReferenceIdeal Cert.ReferenceIdeal.Gen Cert.ReferenceIdeal.HandRun Idealize.ShloMosaic Idealize.ShloMosaic.ValueIdx Cert.PatchPool

/-- The position iota broadcast over batch and patch reads the position's word. -/
theorem pos_apply (b : Fin 16) (p : Fin 256) (s : Fin 8192) :
    broadcastInDim S16x256x8192 ![0, 1, 2] bcast_S1x1x8192_S16x256x8192_0_1_2
      (broadcastInDim S1x1x8192 ![2] bcast_S8192_S1x1x8192_2 (iotaInDim S8192 32 0)) (ix3 b p s) = BitVec.ofNat 32 s.val := rfl

/-- A per-patch word broadcast along the positions reads the patch's word. -/
theorem patch_apply (x : IVec S16x256 32) (b : Fin 16) (p : Fin 256) (s : Fin 8192) :
    broadcastInDim S16x256x8192 ![0, 1, 2] bcast_S16x256x1_S16x256x8192_0_1_2
      (broadcastInDim S16x256x1 ![0, 1] bcast_S16x256_S16x256x1_0_1 x) (ix3 b p s) = x (ix2 b p) :=
  (bcast_ab1_abc (by decide) (by decide) _ _ b p s).trans (bcast_ab_ab1 (by decide) (by decide) x _ b p (0 : Fin 1))

/-- The converted mask at `(b, p, s)` is the weight of position `s` against patch `(b, p)`'s begin and end. -/
theorem mask_apply (a1 : IVec S16x256 32) (b : Fin 16) (p : Fin 256) (s : Fin 8192) :
    (uitofp .f32 (andi
        (cmpi .slt (broadcastInDim S16x256x8192 ![0, 1, 2] bcast_S1x1x8192_S16x256x8192_0_1_2 (broadcastInDim S1x1x8192 ![2] bcast_S8192_S1x1x8192_2 (iotaInDim S8192 32 0)))
          (broadcastInDim S16x256x8192 ![0, 1, 2] bcast_S16x256x1_S16x256x8192_0_1_2 (broadcastInDim S16x256x1 ![0, 1] bcast_S16x256_S16x256x1_0_1 (ends a1))))
        (cmpi .sge (broadcastInDim S16x256x8192 ![0, 1, 2] bcast_S1x1x8192_S16x256x8192_0_1_2 (broadcastInDim S1x1x8192 ![2] bcast_S8192_S1x1x8192_2 (iotaInDim S8192 32 0)))
          (broadcastInDim S16x256x8192 ![0, 1, 2] bcast_S16x256x1_S16x256x8192_0_1_2 (broadcastInDim S16x256x1 ![0, 1] bcast_S16x256_S16x256x1_0_1 (subi (ends a1) a1)))))
        : FVec Ideal S16x256x8192 .f32) (ix3 b p s)
      = wgt (IntOp.subi (ends a1 (ix2 b p)) (a1 (ix2 b p))) (ends a1 (ix2 b p)) s.val := by
  rw [wgt_eq_toNat]
  show ((((IntOp.andi
      (IntOp.cmpi .slt (broadcastInDim S16x256x8192 ![0, 1, 2] bcast_S1x1x8192_S16x256x8192_0_1_2 (broadcastInDim S1x1x8192 ![2] bcast_S8192_S1x1x8192_2 (iotaInDim S8192 32 0)) (ix3 b p s))
        (broadcastInDim S16x256x8192 ![0, 1, 2] bcast_S16x256x1_S16x256x8192_0_1_2 (broadcastInDim S16x256x1 ![0, 1] bcast_S16x256_S16x256x1_0_1 (ends a1)) (ix3 b p s)))
      (IntOp.cmpi .sge (broadcastInDim S16x256x8192 ![0, 1, 2] bcast_S1x1x8192_S16x256x8192_0_1_2 (broadcastInDim S1x1x8192 ![2] bcast_S8192_S1x1x8192_2 (iotaInDim S8192 32 0)) (ix3 b p s))
        (broadcastInDim S16x256x8192 ![0, 1, 2] bcast_S16x256x1_S16x256x8192_0_1_2 (broadcastInDim S16x256x1 ![0, 1] bcast_S16x256_S16x256x1_0_1 (subi (ends a1) a1)) (ix3 b p s)))).toNat : ℝ)) : EReal) = _
  rw [pos_apply, patch_apply, patch_apply]
  rfl

/-- The divisor at `(b, p, d)`: the converted length clamped below at one. -/
theorem divisor_apply (a1 : IVec S16x256 32) (b : Fin 16) (p d : Fin 256) :
    (broadcastInDim S16x256x256 ![0, 1, 2] bcast_S16x256x1_S16x256x256_0_1_2 (broadcastInDim S16x256x1 ![0, 1] bcast_S16x256_S16x256x1_0_1
      (sitofp .f32 (maxsi a1 (broadcastInDim S16x256 ![] bcast_S_S16x256 (constantI S_ 32 1#32))) : FVec Ideal S16x256 .f32))) (ix3 b p d)
      = (((IntOp.maxsi (a1 (ix2 b p)) 1#32).toInt : ℝ) : EReal) :=
  ((bcast_ab1_abc (by decide) (by decide) _ _ b p d).trans (bcast_ab_ab1 (by decide) (by decide) _ _ b p (0 : Fin 1))).trans rfl

/-- The reference's result at `(b, p, d)` is the pooled value of the batch, the running sums and the lengths. -/
theorem result_apply (X : FVec Ideal S16x8192x256 .f32) (a1 : IVec S16x256 32) (b : Fin 16) (p d : Fin 256) :
    result (F := Ideal) X a1 (ix3 b p d) = pooledAt X (ends a1) a1 b p d := by
  unfold result pooledAt
  show Ideal.div (FloatOps.dotGeneral (F := Ideal) dot_S16x256x8192_S16x8192x256_S16x256x256_2_1_1_2_0_0 none .single _ X (ix3 b p d)) _ = _
  rw [divisor_apply]
  refine congrArg (fun z => Ideal.div z _) ?_
  refine (Ideal.dotGeneral_apply _ none _ _ X (ix3 b p d)).trans ?_
  refine (Equiv.sum_comp (contrEquiv1 dot_S16x256x8192_S16x8192x256_S16x256x256_2_1_1_2_0_0 8192 rfl rfl).symm _).symm.trans ?_
  rw [← sum_fin_eq_psum]
  refine Finset.sum_congr rfl fun s _ => ?_
  have hL : dot_S16x256x8192_S16x8192x256_S16x256x256_2_1_1_2_0_0.lhsIdx (ix3 b p d) ((contrEquiv1 dot_S16x256x8192_S16x8192x256_S16x256x256_2_1_1_2_0_0 8192 rfl rfl).symm s) = ix3 b p s :=
    funext fun a => Fin.ext (by
      match a with
      | ⟨0, _⟩ => rfl
      | ⟨1, _⟩ => rfl
      | ⟨2, _⟩ => exact (DotDims.lhsIdx_val_of_single _ rfl _ _).trans (contrEquiv1_symm_val _ 8192 rfl rfl s))
  have hR : dot_S16x256x8192_S16x8192x256_S16x256x256_2_1_1_2_0_0.rhsIdx (ix3 b p d) ((contrEquiv1 dot_S16x256x8192_S16x8192x256_S16x256x256_2_1_1_2_0_0 8192 rfl rfl).symm s) = ix3 b s d :=
    funext fun a => Fin.ext (by
      match a with
      | ⟨0, _⟩ => rfl
      | ⟨1, _⟩ => exact (DotDims.rhsIdx_val_of_single _ rfl _ _).trans (contrEquiv1_symm_val _ 8192 rfl rfl s)
      | ⟨2, _⟩ => rfl)
  rw [hL, hR, mask_apply, colOf_val]

/-- The reference's result array is the pooled array. -/
theorem result_eq (X : FVec Ideal S16x8192x256 .f32) (a1 : IVec S16x256 32) :
    result (F := Ideal) X a1 = pooled X (ends a1) a1 := by
  funext j
  obtain ⟨b, p, d, rfl⟩ : ∃ (b : Fin 16) (p : Fin 256) (d : Fin 256), j = ix3 b p d := ⟨j 0, j 1, j 2, eq_ix3 j⟩
  exact result_apply X a1 b p d

end Cert.ReferenceIdeal.HandValue

end
-- ==== Proof.lean ====
/-
  Patch pooling by a mask matmul: the kernel against its jnp reference.

  Both programs compute, for batch element `b`, patch `p` and feature `d`, the sum over sequence positions `s` of
  `w(s) · X[b, s, d]` over the patch length clamped below at one, where `w(s)` is one inside the patch's window
  `[begin, end)` and zero outside, the ends the running sums of the lengths.  The reference contracts the whole
  [256, 8192] mask with the [8192, 256] batch slab at once; the kernel walks four tiles of 2048 positions per batch
  element, building each tile's mask on the fly, adding its product to a scratch accumulator zeroed at the first
  tile, and dividing at the last.  On the extended reals the two groupings of the sum agree by commutativity and
  associativity alone, and the divisors agree on 32-bit words, so the precondition that the inputs are finite is
  never opened.  The three programs' runs: the kernel's two frames are the generated frame runs; the reference's
  run is its straight line of host operations read back.  The idealization rewrote nothing.
-/
import proofs.«101690_j46952582480042_1_alg».proof.Defs
import proofs.«101690_j46952582480042_1_alg».proof.Proof.Gen.Kernel
import proofs.«101690_j46952582480042_1_alg».proof.Proof.Gen.Kernel.Skeleton
import proofs.«101690_j46952582480042_1_alg».proof.Proof.Gen.Kernel.Launch
import proofs.«101690_j46952582480042_1_alg».proof.Proof.Gen.Kernel.Points
import proofs.«101690_j46952582480042_1_alg».proof.Proof.Gen.Kernel.Frame
import proofs.«101690_j46952582480042_1_alg».proof.Proof.Gen.KernelIdeal
import proofs.«101690_j46952582480042_1_alg».proof.Proof.Gen.KernelIdeal.Skeleton
import proofs.«101690_j46952582480042_1_alg».proof.Proof.Gen.KernelIdeal.Launch
import proofs.«101690_j46952582480042_1_alg».proof.Proof.Gen.KernelIdeal.Points
import proofs.«101690_j46952582480042_1_alg».proof.Proof.Gen.KernelIdeal.Frame
import proofs.«101690_j46952582480042_1_alg».proof.Proof.Gen.KernelIdeal.Value
import proofs.«101690_j46952582480042_1_alg».proof.Proof.Gen.ReferenceIdeal
import proofs.«101690_j46952582480042_1_alg».proof.Proof.Gen.Pre_finite_inputs
import proofs.«101690_j46952582480042_1_alg».proof.Proof.KernelValue
import proofs.«101690_j46952582480042_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the batch and the lengths, both programs end with the pooled array of those arguments. -/
theorem algebraic : Cert.algebraic_KernelIdeal_ReferenceIdeal := by
  intro m ρ m' ρ' _ hagree
  refine ⟨fun c => Cert.KernelIdeal.PoolValue.result m c, Cert.KernelIdeal.PoolValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
